-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S600000 32) (main_arg2 : IVec S600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S_ : Shape := ⟨0, ![]⟩
abbrev S600000x1 : Shape := ⟨2, ![600000, 1]⟩
abbrev S600000x128 : Shape := ⟨2, ![600000, 128]⟩
abbrev S12000x128 : Shape := ⟨2, ![12000, 128]⟩
abbrev S12000x1 : Shape := ⟨2, ![12000, 1]⟩
abbrev S12000 : Shape := ⟨1, ![12000]⟩

abbrev nBuf : Space → Nat
  | .hbm => 28
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S100000x128, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S600000x1, .f32⟩
  | .hbm, ⟨27, _⟩ => ⟨S600000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S12000x128, .f32⟩
  | .local _ .vmem, ⟨7, _⟩ => ⟨S12000x128, .f32⟩
  | .local _ .vmem, ⟨8, _⟩ => ⟨S12000x128, .f32⟩
  | .local _ .vmem, ⟨9, _⟩ => ⟨S12000x128, .f32⟩
  | .local _ .vmem, ⟨10, _⟩ => ⟨S12000x1, .f32⟩
  | .local _ .vmem, ⟨11, _⟩ => ⟨S12000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S600000 : S_.BroadcastsInDim S600000 (![] : Fin 0 → Fin S600000.rank)
  bcast_S600000_S600000x1_0 : S600000.BroadcastsInDim S600000x1 (![0] : Fin 1 → Fin S600000x1.rank)
  inb_S12000x128_S12000x128_0_0 : ∀ a, (![0, 0] : Fin 2 → Nat) a + S12000x128.size a ≤ S12000x128.size a
  h_S12000x128 : 0 < S12000x128.numel
  shapeCasts_S12000x128_S12000x128 : S12000x128.ShapeCasts S12000x128
  reduces_S12000x128_S12000 : S12000x128.Reduces [1] S12000
  shapeCasts_S12000_S12000x1 : S12000.ShapeCasts S12000x1
  inb_S12000x1_S12000x1_0_0 : ∀ a, (![0, 0] : Fin 2 → Nat) a + S12000x1.size a ≤ S12000x1.size a
  h_S12000x1 : 0 < S12000x1.numel
  shapeCasts_S600000x1_S600000 : S600000x1.ShapeCasts S600000
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x128.size a ≤ S600000x128.size a
  hwx1_0 : ∀ i : grid1.Coords, EltTy.bits .f32 = 32 ∨ (Rect.block (s := S600000x128) S12000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x128.size a ≤ S600000x128.size a
  hwx1_1 : ∀ i : grid1.Coords, EltTy.bits .f32 = 32 ∨ (Rect.block (s := S600000x128) S12000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12000x1.size a ≤ S600000x1.size a
  hwx1_2 : ∀ i : grid1.Coords, EltTy.bits .f32 = 32 ∨ (Rect.block (s := S600000x1) S12000x1.size (cc1_transform_2 i) (hinb1_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S12000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S12000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S12000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S600000x128, .f32⟩
  | .hbm, ⟨29, _⟩ => ⟨S_, .f32⟩
  | .hbm, ⟨30, _⟩ => ⟨S600000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  reducesTo_S600000x128_S600000_d1 : S600000x128.ReducesTo [1] S600000
  h_S_ : 0 < S_.numel
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf

class Facts : Prop extends Facts₀ where

variable [Facts]
-- ==== Proof.KernelRun.lean ====
/-
  The kernel program's run with its RESULT named. The program is five segments: two host operations (transpose the
  weight, view the bias as a row), the projection pallas_call, eighteen host operations (the two wrapped index columns
  and the two row gathers), the scoring pallas_call, and one host reshape of the `[600000, 1]` column to the
  `[600000]` result. Run from a memory `m`, every weakly fair execution terminates and every buffer outside the
  kernels' scopes ends at the fold of those five segments over `m` — in particular the result buffer, which is what
  this module keeps beside the unchanged arguments.
-/
import proofs.«160177_j69965017252750_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates; the result buffer ends at the five segments' fold over `m`
    read at it, and the five arguments end as launched. -/
theorem run : θ_run defs (onTc (τ := τ) (main (F := F))) ⟨m, fun _ => 0, ρ⟩ (fun r => ∀ c : Dev nD,
      r.2.mem ((c.tc : Thread nD τ).loc main_v18) = W5 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    -- the program on a core is the run of its five segments
    (fun c Q => by rw [main_run m ρ c])
    -- each pallas_call is entered once
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch resource is the two pipelines' staging cells and duty tokens; no other ghost state is dealt
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- a core's state between segments: every buffer outside the kernels' scopes held whole at the boundary's contents,
    -- the generator register at some state, nothing owed
    (T₀ := fun c => iprop(StableHlo.held (c : Thread nD τ) (Pipeline.ucRefs τ sig) (W0 m ρ c) ∗ R c)) (Tₙ := Tₙ m ρ)
    -- each segment starts from exactly what the one before it left; the last leaves nothing owed
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    -- at launch a core holds its buffers at the launch memory, its register, and owes nothing: the first state
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- at the end every such buffer holds the fold's value, read against the final memory
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    -- the result buffer is one of those buffers; each argument walks back through the fold to its launch contents
    (hQ := fun s h c =>
      ⟨h c _ (mem_uc main_v18 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Result

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowFolds.lean ====
/-
  Reductions along the LAST axis read at an index written by coordinates, at the exact (extended-real) values.

  On the device, a `vector.multi_reduction` over axis 1 of an `[a, b]` array read at `n`: with an add body from the
  neutral accumulator it is `Σ_k src (n, k)`; with a maximum body it is `max` folded over `k` from the accumulator's
  value. On the host, a `stablehlo.reduce` with a maximum body over axis 2 of an `[m, a, b]` array read at `(e, n)` is
  `max` folded over `k` of the operand at `(e, n, k)`, from the initial value. And the word of −∞ is neutral for `max`.
  General: nothing here mentions a program.
-/
import Idealize.ShloMosaic.PureOps.Ideal.Laws
import Idealize.ShloMosaic.Lib.ValueIdx

noncomputable section

namespace Cert.LibRowFolds

open Idealize.ShloMosaic Idealize.ShloMosaic.ValueIdx

/-- Inserting coordinate `k` on axis 1 into the reduced index `n` gives `(n, k)`. -/
theorem lift_row {a b : ℕ} (h : (⟨2, ![a, b]⟩ : Shape).Reduces [1] ⟨1, ![a]⟩) (n : Fin a) (k : Fin b) :
    h.lift (ix1 n) k = ix2 n k := by
  funext ax; apply Fin.ext
  match ax with
  | ⟨0, _⟩ => rfl
  | ⟨1, _⟩ => rfl

/-- A device sum over axis 1 of `[a, b]` from the neutral accumulator, at `n`, is `Σ_k src (n, k)`. -/
theorem rowSum_at {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (n : Fin a) :
    multiReduction .add [1] ⟨1, ![a]⟩ src acc h hφ hacc (ix1 n) = ∑ k : Fin b, src (ix2 n k) := by
  refine (Ideal.multiReduction_add_single src acc h hφ hacc (ix1 n)).trans ?_
  exact Finset.sum_congr rfl fun k _ => congrArg src (lift_row h n k)

/-- A device maximum over axis 1 of `[a, b]`, at `n`, is `max` folded over `k` from the accumulator's value. -/
theorem rowMax_at {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  exact congrArg (fun f => Finset.fold max (Ideal.ofBits .f32 acc) f (Finset.univ : Finset (Fin b)))
    (funext fun k => congrArg src (lift_row h n k))

/-- Inserting coordinate `k` on axis 2 into the reduced index `(e, n)` gives `(e, n, k)`. -/
theorem lift_last3 {m a b : ℕ} (h : (⟨3, ![m, a, b]⟩ : Shape).Reduces [2] ⟨2, ![m, a]⟩) (e : Fin m) (n : Fin a)
    (k : Fin b) : h.lift (ix2 e n) k = ix3 e n k := by
  funext ax; apply Fin.ext
  match ax with
  | ⟨0, _⟩ => rfl
  | ⟨1, _⟩ => rfl
  | ⟨2, _⟩ => rfl

/-- A host maximum over axis 2 of `[m, a, b]`, at `(e, n)`, is `max` folded over `k` from the initial value. -/
theorem hostMax_last3_at {m a b : ℕ} {u : Shape} (x : FVec Ideal ⟨3, ![m, a, b]⟩ .f32) (init : u.Idx → Ideal .f32)
    (h' : (⟨3, ![m, a, b]⟩ : Shape).ReducesTo [2] ⟨2, ![m, a]⟩) (h : (⟨3, ![m, a, b]⟩ : Shape).Reduces [2] ⟨2, ![m, a]⟩)
    (hu : 0 < u.numel) (e : Fin m) (n : Fin a) :
    Host.reduce FloatOps.maximumf x init h' hu (ix2 e n)
      = (Finset.univ : Finset (Fin b)).fold max (init (Shape.Idx.first hu)) (fun k => x (ix3 e n k)) := by
  refine (Host.reduce_eq_fold_single FloatOps.maximumf x init h' h hu (ix2 e n)).trans ?_
  exact congrArg (fun f => Finset.fold max (init (Shape.Idx.first hu)) f (Finset.univ : Finset (Fin b)))
    (funext fun k => congrArg x (lift_last3 h e n k))

/-- The value of the word of −∞ is the least extended real, so it is neutral for `max`. -/
theorem max_negInf (y : EReal) : max (Ideal.ofBits .f32 0xFF800000#32) y = y := by
  simp [Ideal.ofBits, Ideal.ieee]

end Cert.LibRowFolds

end
-- ==== Proof.Payloads.lean ====
/-
  The two kernel bodies' arithmetic, read at an index written by coordinates, at the exact (extended-real) values.

  The projection body stores, for its block of rows, `x · wt + b`: at `(p, q)` that is
  `Σ_k x (p, k) · wt (k, q) + b (0, q)` — the product into the zero accumulator is the plain sum over the contracted
  coordinate, and the bias row `[1, 128]` is repeated down the rows. The scoring body stores, for its block of edges,
  the row sums of an elementwise product kept as a column: at `(p, u)` that is `Σ_d a (p, d) · b (p, d)`.
-/
import proofs.«160177_j69965017252750_1_alg».proof.Proof.Gen.KernelIdeal.Skeleton
import proofs.«160177_j69965017252750_1_alg».proof.Proof.LibPlainMatmul
import proofs.«160177_j69965017252750_1_alg».proof.Proof.LibKeepdims
import proofs.«160177_j69965017252750_1_alg».proof.Proof.LibRowFolds
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The projection body at `(p, q)`: the row of `x` against the column of `wt`, plus the bias entry of that column. -/
theorem proj_at (x : Vec Ideal S2000x128 .f32) (wt : Vec Ideal S128x128 .f32) (b : Vec Ideal S1x128 .f32)
    (p : Fin 2000) (q : Fin 128) :
    k0_pay1 (F := Ideal) x wt b (ix2 p q) = (∑ k : Fin 128, x (ix2 p k) * wt (ix2 k q)) + b (ix2 (0 : Fin 1) q) := by
  unfold k0_pay1
  refine (addf_apply _ _ _).trans ?_
  refine congrArg₂ (· + ·) ?_ ?_
  · rw [shapeCast_self]
    exact Cert.LibPlainMatmul.matmul_zero_at dot_S2000x128_S128x128_S2000x128_1_0_0_1_n_n none rfl rfl
      (fun i c => by
        unfold DotDims.lhsIdx
        rw [dif_neg (show ¬(0 : Fin S2000x128.rank) ∈ dot_S2000x128_S128x128_S2000x128_1_0_0_1_n_n.lhsBatch by decide),
          dif_pos (show (0 : Fin S2000x128.rank) ∈ dot_S2000x128_S128x128_S2000x128_1_0_0_1_n_n.lhsNonContracting by decide)]
        rfl)
      (fun i c => dot_S2000x128_S128x128_S2000x128_1_0_0_1_n_n.lhsIdx_val_of_single rfl i c)
      (fun i c => dot_S2000x128_S128x128_S2000x128_1_0_0_1_n_n.rhsIdx_val_of_single rfl i c)
      (fun i c => by
        unfold DotDims.rhsIdx
        rw [dif_neg (show ¬(1 : Fin S128x128.rank) ∈ dot_S2000x128_S128x128_S2000x128_1_0_0_1_n_n.rhsBatch by decide),
          dif_pos (show (1 : Fin S128x128.rank) ∈ dot_S2000x128_S128x128_S2000x128_1_0_0_1_n_n.rhsNonContracting by decide)]
        rfl)
      x wt p q
  · rw [shapeCast_self]
    exact broadcastTo_1b_ab_apply b broadcasts_S1x128_S2000x128 p q

/-- The scoring body at `(p, u)`: the dot product of row `p` of the two blocks, whatever the unit coordinate `u`. -/
theorem score_at (a b : Vec Ideal S12000x128 .f32) (p : Fin 12000) (u : Fin 1) :
    k1_pay1 (F := Ideal) a b (ix2 p u) = ∑ d : Fin 128, a (ix2 p d) * b (ix2 p d) := by
  unfold k1_pay1
  refine (Cert.Keepdims.shapeCast_a_a1_apply _ shapeCasts_S12000_S12000x1 p u).trans ?_
  refine (Cert.LibRowFolds.rowSum_at _ 0x00000000#32 reduces_S12000x128_S12000 (.inl rfl) rfl p).trans ?_
  rw [shapeCast_self, shapeCast_self]
  rfl

end Cert.KernelIdeal.Payload

end
-- ==== Proof.Projection.lean ====
/-
  Region 0, from blocks to the array. The first pallas_call walks the node rows in 50 blocks of 2000: at grid point
  `t` it reads rows `2000 t … 2000 t + 1999` of the node features, the whole `[128, 128]` weight (already
  transposed) and the whole `[1, 128]` bias row, and writes rows `2000 t … 2000 t + 1999` of the result. Every
  written block is the restriction of ONE whole-array function of the arrays the region finds,
    projected x wt b (r, q) = Σ_k x (r, k) · wt (k, q) + b (0, q),
  and the 50 blocks tile the `[100000, 128]` result, so the result array ends holding `projected`.
-/
import proofs.«160177_j69965017252750_1_alg».proof.Proof.Gen.KernelIdeal.Frame
import proofs.«160177_j69965017252750_1_alg».proof.Proof.Payloads
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Projection

open Cert.KernelIdeal Cert.KernelIdeal.Gen

/-- Row `r` of the features against column `q` of the weight, plus the bias entry of column `q`. -/
def rowProj (x : Vec Ideal S100000x128 .f32) (wt : Vec Ideal S128x128 .f32) (b : Vec Ideal S1x128 .f32)
    (r : Fin 100000) (q : Fin 128) : EReal :=
  (∑ k : Fin 128, x (ix2 r k) * wt (ix2 k q)) + b (ix2 (0 : Fin 1) q)

/-- The projected node features as one array. -/
def projected (x : Vec Ideal S100000x128 .f32) (wt : Vec Ideal S128x128 .f32) (b : Vec Ideal S1x128 .f32) :
    Vec Ideal S100000x128 .f32 := fun i => rowProj x wt b (i 0) (i 1)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block `(t, 0)`, the weight and the bias at `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the feature block at point `t` is row `2000 t + p` of the feature array. -/
theorem rows_block (c : Dev nD) (t : Fin cfg0.N) (p : Fin 2000) (k : Fin 128) (r : Fin 100000)
    (hr : r.val = t.val * 2000 + p.val) :
    (iblk0 V c 0 t : Vec Ideal S2000x128 .f32) (ix2 p k) = (V c main_arg0 : Vec Ideal S100000x128 .f32) (ix2 r k) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight window's one block is the whole weight array. -/
theorem weight_block (c : Dev nD) (t : Fin cfg0.N) (j : S128x128.Idx) :
    (iblk0 V c 1 t : Vec Ideal S128x128 .f32) j = (V c main_v0 : Vec Ideal S128x128 .f32) j := by
  obtain ⟨-, -, e0, e1, -⟩ := idx_facts t
  unfold iblk0
  rw [View.read_apply]
  show V c main_v0 _ = V c main_v0 _
  refine congrArg _ (funext fun a => Fin.ext ?_)
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- The bias window's one block is the whole bias row. -/
theorem bias_block (c : Dev nD) (t : Fin cfg0.N) (j : S1x128.Idx) :
    (iblk0 V c 2 t : Vec Ideal S1x128 .f32) j = (V c main_v1 : Vec Ideal S1x128 .f32) j := by
  obtain ⟨-, -, -, -, e0, e1, -⟩ := idx_facts t
  unfold iblk0
  rw [View.read_apply]
  show V c main_v1 _ = V c main_v1 _
  refine congrArg _ (funext fun a => Fin.ext ?_)
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

/-- What point `t` writes back is block `t` of `projected` of the arrays the region finds. -/
theorem flushed_eq (c : Dev nD) (t : Fin cfg0.N) :
    (dat0 V c).flushed 3 t
      = ((cfg0.win 3).blk t).view.read (Elt Ideal) (projected (V c main_arg0) (V c main_v0) (V c main_v1)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  obtain ⟨-, -, -, -, -, -, e0, e1⟩ := idx_facts t
  have hN : t.val < 50 := lt_of_lt_of_eq t.isLt N_0
  funext j
  have hp : (j 0).val < 2000 := (j 0).isLt
  have hq : (j 1).val < 128 := (j 1).isLt
  rw [View.read_apply]
  have hx : (cfg0.win 3).xinj (grid0.coords t) j = ix2 (⟨(j 0).val, hp⟩ : Fin 2000) (⟨(j 1).val, hq⟩ : Fin 128) :=
    funext fun a => Fin.ext (by match a with | ⟨0, _⟩ => rfl | ⟨1, _⟩ => rfl)
  have hemb : ((cfg0.win 3).blk t).view.emb j
      = ix2 (⟨t.val * 2000 + (j 0).val, by omega⟩ : Fin 100000) (⟨(j 1).val, hq⟩ : Fin 128) :=
    funext fun a => Fin.ext (by
      match a with
      | ⟨0, _⟩ => show win0_3.index t (0 : Fin 2) * 2000 + 1 * (j 0).val = t.val * 2000 + (j 0).val; rw [e0]; omega
      | ⟨1, _⟩ => show win0_3.index t (1 : Fin 2) * 128 + 1 * (j 1).val = (j 1).val; rw [e1]; omega)
  show k0_pay1 (F := Ideal) (iblk0 V c 0 t) (iblk0 V c 1 t) (iblk0 V c 2 t) ((cfg0.win 3).xinj (grid0.coords t) j) = _
  rw [hx, hemb]
  refine (Cert.KernelIdeal.Payload.proj_at (iblk0 V c 0 t) (iblk0 V c 1 t) (iblk0 V c 2 t) ⟨(j 0).val, hp⟩ ⟨(j 1).val, hq⟩).trans ?_
  show _ = rowProj (V c main_arg0) (V c main_v0) (V c main_v1) ⟨t.val * 2000 + (j 0).val, _⟩ ⟨(j 1).val, hq⟩
  unfold rowProj
  refine congrArg₂ (· + ·) (Finset.sum_congr rfl fun k _ => congrArg₂ (· * ·) ?_ ?_) ?_
  · exact rows_block V c t ⟨(j 0).val, hp⟩ k ⟨t.val * 2000 + (j 0).val, by omega⟩ rfl
  · exact weight_block V c t _
  · exact bias_block V c t _

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v2).slice (win0_3.rect t)).set ↔ _
  rw [View.set_slice_whole, Rect.mem_set_unit]
  exact Iff.rfl

/-- Row `r` of the result is written by point `r / 2000`: the blocks tile the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 2000 < cfg0.N := by rw [show cfg0.N = 50 from N_0]; omega
  obtain ⟨-, -, -, -, -, -, e0, e1⟩ := idx_facts ⟨(i 0).val / 2000, ht⟩
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e1]; omega

/-- The result array after the region: `projected` of the arrays the region finds. -/
theorem final (c : Dev nD) :
    (dat0 V c).arrAt 3 cfg0.N = projected (V c main_arg0) (V c main_v0) (V c main_v1) :=
  (dat0 V c).arrAt_eq_of_cover 3 _ (fun t _ => flushed_eq V c t) cover

end Cert.KernelIdeal.Projection

end
-- ==== Proof.Scoring.lean ====
/-
  Region 1, from blocks to the array. The second pallas_call walks the edges in 50 blocks of 12000: at grid point `t` it
  reads rows `12000 t … 12000 t + 11999` of the two gathered `[600000, 128]` arrays and writes the same rows of the
  `[600000, 1]` result column. Every written block is the restriction of ONE whole-array function of the two arrays
  the region finds,
    scores a b (e, 0) = Σ_d a (e, d) · b (e, d),
  and the 50 blocks tile the column, so the result array ends holding `scores`.
-/
import proofs.«160177_j69965017252750_1_alg».proof.Proof.Gen.KernelIdeal.Frame
import proofs.«160177_j69965017252750_1_alg».proof.Proof.Payloads
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Scoring

open Cert.KernelIdeal Cert.KernelIdeal.Gen

/-- The dot product of row `e` of the two edge arrays. -/
def rowDot (a b : Vec Ideal S600000x128 .f32) (e : Fin 600000) : EReal :=
  ∑ d : Fin 128, a (ix2 e d) * b (ix2 e d)

/-- The per-edge scores as one column array. -/
def scores (a b : Vec Ideal S600000x128 .f32) : Vec Ideal S600000x1 .f32 := fun i => rowDot a b (i 0)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: all three windows sit at block `(t, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `p` of the first edge block at point `t` is row `12000 t + p` of the first edge array. -/
theorem left_block (c : Dev nD) (t : Fin cfg1.N) (p : Fin 12000) (d : Fin 128) (e : Fin 600000)
    (he : e.val = t.val * 12000 + p.val) :
    (iblk1 V c 0 t : Vec Ideal S12000x128 .f32) (ix2 p d) = (V c main_v9 : Vec Ideal S600000x128 .f32) (ix2 e d) := by
  obtain ⟨e0, e1, -⟩ := idx_facts t
  unfold iblk1
  rw [View.read_apply]
  show V c main_v9 _ = V c main_v9 _
  refine congrArg _ (funext fun a => Fin.ext ?_)
  match a with
  | ⟨0, _⟩ => show win1_0.index t (0 : Fin 2) * 12000 + 1 * p.val = e.val; rw [e0, he]; omega
  | ⟨1, _⟩ => show win1_0.index t (1 : Fin 2) * 128 + 1 * d.val = d.val; rw [e1]; omega

/-- Row `p` of the second edge block at point `t` is row `12000 t + p` of the second edge array. -/
theorem right_block (c : Dev nD) (t : Fin cfg1.N) (p : Fin 12000) (d : Fin 128) (e : Fin 600000)
    (he : e.val = t.val * 12000 + p.val) :
    (iblk1 V c 1 t : Vec Ideal S12000x128 .f32) (ix2 p d) = (V c main_v16 : Vec Ideal S600000x128 .f32) (ix2 e d) := by
  obtain ⟨-, -, e0, e1, -⟩ := idx_facts t
  unfold iblk1
  rw [View.read_apply]
  show V c main_v16 _ = V c main_v16 _
  refine congrArg _ (funext fun a => Fin.ext ?_)
  match a with
  | ⟨0, _⟩ => show win1_1.index t (0 : Fin 2) * 12000 + 1 * p.val = e.val; rw [e0, he]; omega
  | ⟨1, _⟩ => show win1_1.index t (1 : Fin 2) * 128 + 1 * d.val = d.val; rw [e1]; omega

/-- What point `t` writes back is block `t` of `scores` of the two arrays the region finds. -/
theorem flushed_eq (c : Dev nD) (t : Fin cfg1.N) :
    (dat1 V c).flushed 2 t = ((cfg1.win 2).blk t).view.read (Elt Ideal) (scores (V c main_v9) (V c main_v16)) := by
  show (cfg1.win 2).cut (grid1.coords t) ((dat1 V c).after 2 t) = _
  rw [after1_2]
  unfold out1_2
  rw [View.canon_unit_zero hz]
  simp only [View.ld_unit_zero (S := S12000x128) hz]
  obtain ⟨-, -, -, -, e0, e1⟩ := idx_facts t
  have hN : t.val < 50 := lt_of_lt_of_eq t.isLt N_1
  funext j
  have hp : (j 0).val < 12000 := (j 0).isLt
  have hu : (j 1).val < 1 := (j 1).isLt
  rw [View.read_apply]
  have hx : (cfg1.win 2).xinj (grid1.coords t) j = ix2 (⟨(j 0).val, hp⟩ : Fin 12000) (⟨(j 1).val, hu⟩ : Fin 1) :=
    funext fun a => Fin.ext (by match a with | ⟨0, _⟩ => rfl | ⟨1, _⟩ => rfl)
  have hemb : ((cfg1.win 2).blk t).view.emb j
      = ix2 (⟨t.val * 12000 + (j 0).val, by omega⟩ : Fin 600000) (⟨(j 1).val, hu⟩ : Fin 1) :=
    funext fun a => Fin.ext (by
      match a with
      | ⟨0, _⟩ => show win1_2.index t (0 : Fin 2) * 12000 + 1 * (j 0).val = t.val * 12000 + (j 0).val; rw [e0]; omega
      | ⟨1, _⟩ => show win1_2.index t (1 : Fin 2) * 1 + 1 * (j 1).val = (j 1).val; rw [e1]; omega)
  show k1_pay1 (F := Ideal) (iblk1 V c 0 t) (iblk1 V c 1 t) ((cfg1.win 2).xinj (grid1.coords t) j) = _
  rw [hx, hemb]
  refine (Cert.KernelIdeal.Payload.score_at (iblk1 V c 0 t) (iblk1 V c 1 t) ⟨(j 0).val, hp⟩ ⟨(j 1).val, hu⟩).trans ?_
  show _ = rowDot (V c main_v9) (V c main_v16) ⟨t.val * 12000 + (j 0).val, _⟩
  unfold rowDot
  refine Finset.sum_congr rfl fun d _ => congrArg₂ (· * ·) ?_ ?_
  · exact left_block V c t ⟨(j 0).val, hp⟩ d ⟨t.val * 12000 + (j 0).val, by omega⟩ rfl
  · exact right_block V c t ⟨(j 0).val, hp⟩ d ⟨t.val * 12000 + (j 0).val, by omega⟩ rfl

/-- An index of the result column is in point `t`'s block iff each coordinate is in the block's range on its axis. -/
theorem mem_blk (t : Fin cfg1.N) (i : S600000x1.Idx) :
    i ∈ ((cfg1.win 2).blk t).view.set ↔ ∀ a : Fin 2, win1_2.index t a * S12000x1.size a ≤ (i a).val
      ∧ (i a).val < win1_2.index t a * S12000x1.size a + S12000x1.size a := by
  show i ∈ ((View.whole main_v17).slice (win1_2.rect t)).set ↔ _
  rw [View.set_slice_whole, Rect.mem_set_unit]
  exact Iff.rfl

/-- Edge `e` of the result is written by point `e / 12000`: the blocks tile the column. -/
theorem cover (i : S600000x1.Idx) :
    ∃ t : Fin cfg1.N, (cfg1.win 2).flush t = true ∧ i ∈ ((cfg1.win 2).blk t).view.set := by
  have hi0 : (i 0).val < 600000 := (i 0).isLt
  have hi1 : (i 1).val < 1 := (i 1).isLt
  have ht : (i 0).val / 12000 < cfg1.N := by rw [show cfg1.N = 50 from N_1]; omega
  obtain ⟨-, -, -, -, e0, e1⟩ := idx_facts ⟨(i 0).val / 12000, ht⟩
  refine ⟨⟨(i 0).val / 12000, ht⟩, flush1_2 _, ?_⟩
  rw [mem_blk]
  intro a
  match a with
  | ⟨0, _⟩ =>
    show win1_2.index ⟨(i 0).val / 12000, ht⟩ (0 : Fin 2) * 12000 ≤ (i 0).val
      ∧ (i 0).val < win1_2.index ⟨(i 0).val / 12000, ht⟩ (0 : Fin 2) * 12000 + 12000
    rw [e0]; show (i 0).val / 12000 * 12000 ≤ (i 0).val ∧ (i 0).val < (i 0).val / 12000 * 12000 + 12000; omega
  | ⟨1, _⟩ =>
    show win1_2.index ⟨(i 0).val / 12000, ht⟩ (1 : Fin 2) * 1 ≤ (i 1).val
      ∧ (i 1).val < win1_2.index ⟨(i 0).val / 12000, ht⟩ (1 : Fin 2) * 1 + 1
    rw [e1]; omega

/-- The result column after the region: `scores` of the two arrays the region finds. -/
theorem final (c : Dev nD) : (dat1 V c).arrAt 2 cfg1.N = scores (V c main_v9) (V c main_v16) :=
  (dat1 V c).arrAt_eq_of_cover 2 _ (fun t _ => flushed_eq V c t) cover

end Cert.KernelIdeal.Scoring

end
-- ==== Proof.KernelValue.lean ====
/-
  The kernel program's result as ONE function of its five arguments.

  Reading the run's fold backwards from the result buffer: the result is the `[600000, 1]` score column viewed as a
  vector; the column is the row dot products of two gathered arrays; the first gathers rows of the projected features
  at the wrapped source indices, the second gathers rows of the features themselves at the wrapped destination indices;
  the projected features are the features against the transposed weight plus the bias viewed as a row. Each host stretch
  is read over an arbitrary valuation of the buffers it starts from, so the regions' arrays enter only as values.
-/
import proofs.«160177_j69965017252750_1_alg».proof.Proof.Gen.KernelIdeal.Frame
import proofs.«160177_j69965017252750_1_alg».proof.Proof.Projection
import proofs.«160177_j69965017252750_1_alg».proof.Proof.Scoring
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen

/-- An index vector as the gather's `[600000, 1]` start-index column, a negative index first wrapped by adding the
    number of rows. -/
def idxColumn (s : (⟨S600000, .i32⟩ : BufTy).Contents (Elt Ideal)) : (⟨S600000x1, .i32⟩ : BufTy).Contents (Elt Ideal) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

/-- The rows of `x` the index vector names, one per edge. -/
def rowsAt (x : (⟨S100000x128, .f32⟩ : BufTy).Contents (Elt Ideal)) (s : (⟨S600000, .i32⟩ : BufTy).Contents (Elt Ideal)) :
    (⟨S600000x128, .f32⟩ : BufTy).Contents (Elt Ideal) :=
  Host.gather gather_S100000x128_S600000x1_S600000x128_1_0_n_n_0_1_1128 x (idxColumn s)

/-- The program's result from its arguments: features `h`, edge endpoints `src` / `dst`, weight `w`, bias `b`. -/
def result (h : (⟨S100000x128, .f32⟩ : BufTy).Contents (Elt Ideal)) (src dst : (⟨S600000, .i32⟩ : BufTy).Contents (Elt Ideal))
    (w : (⟨S128x128, .f32⟩ : BufTy).Contents (Elt Ideal)) (b : (⟨S128, .f32⟩ : BufTy).Contents (Elt Ideal)) :
    (⟨S600000, .f32⟩ : BufTy).Contents (Elt Ideal) :=
  shapeCast S600000
    (Scoring.scores
      (rowsAt (Projection.projected h (transpose S128x128 [1, 0] w transposes_S128x128_S128x128_1_0)
        (shapeCast S1x128 b shapeCasts_S128_S1x128)) src)
      (rowsAt h dst))
    shapeCasts_S600000x1_S600000

/-! ## The three host stretches, from any valuation -/

section Stretches

variable (Wb : Valuation τ sig (Elt Ideal))

theorem before_weight : StableHlo.after hostOps0 Wb (Proc.devRef .tc main_v0)
    = transpose S128x128 [1, 0] (Wb (Proc.devRef .tc main_arg3)) transposes_S128x128_S128x128_1_0 := by
  after_results <;> rfl

theorem before_bias : StableHlo.after hostOps0 Wb (Proc.devRef .tc main_v1)
    = shapeCast S1x128 (Wb (Proc.devRef .tc main_arg4)) shapeCasts_S128_S1x128 := by
  after_results <;> rfl

theorem before_keeps_h : StableHlo.after hostOps0 Wb (Proc.devRef .tc main_arg0) = Wb (Proc.devRef .tc main_arg0) := by
  after_results <;> rfl

theorem before_keeps_src : StableHlo.after hostOps0 Wb (Proc.devRef .tc main_arg1) = Wb (Proc.devRef .tc main_arg1) := by
  after_results <;> rfl

theorem before_keeps_dst : StableHlo.after hostOps0 Wb (Proc.devRef .tc main_arg2) = Wb (Proc.devRef .tc main_arg2) := by
  after_results <;> rfl

theorem between_left : StableHlo.after hostOps1 Wb (Proc.devRef .tc main_v9)
    = rowsAt (Wb (Proc.devRef .tc main_v2)) (Wb (Proc.devRef .tc main_arg1)) := by
  after_results <;> rfl

theorem between_right : StableHlo.after hostOps1 Wb (Proc.devRef .tc main_v16)
    = rowsAt (Wb (Proc.devRef .tc main_arg0)) (Wb (Proc.devRef .tc main_arg2)) := by
  after_results <;> rfl

theorem after_column : StableHlo.after hostOps2 Wb (Proc.devRef .tc main_v18)
    = shapeCast S600000 (Wb (Proc.devRef .tc main_v17)) shapeCasts_S600000x1_S600000 := by
  after_results <;> rfl

end Stretches

/-! ## The fold read at the result -/

variable (m : (ℓ : Loc nD τ sig) → Buf (Elt Ideal) ℓ) (ρ : Dev nD → PrngReg)

/-- At the projection region's entry the three input arrays are the features, the transposed weight and the bias row. -/
theorem entry0_h (c : Dev nD) : V1 m ρ c main_arg0 = m ((c : Thread nD τ).loc main_arg0) := before_keeps_h (W0 m ρ c)
theorem entry0_w (c : Dev nD) : V1 m ρ c main_v0
    = transpose S128x128 [1, 0] (m ((c : Thread nD τ).loc main_arg3)) transposes_S128x128_S128x128_1_0 := before_weight (W0 m ρ c)
theorem entry0_b (c : Dev nD) : V1 m ρ c main_v1
    = shapeCast S1x128 (m ((c : Thread nD τ).loc main_arg4)) shapeCasts_S128_S1x128 := before_bias (W0 m ρ c)

/-- After the projection region: the projected features in its result array; the features and the two index vectors as
    launched. -/
theorem exit0_proj (c : Dev nD) : W2 m ρ c (Proc.devRef .tc main_v2)
    = Projection.projected (m ((c : Thread nD τ).loc main_arg0))
        (transpose S128x128 [1, 0] (m ((c : Thread nD τ).loc main_arg3)) transposes_S128x128_S128x128_1_0)
        (shapeCast S1x128 (m ((c : Thread nD τ).loc main_arg4)) shapeCasts_S128_S1x128) := by
  refine (W2_arr m ρ c 3).trans ((Projection.final (V1 m ρ) c).trans ?_)
  rw [entry0_h, entry0_w, entry0_b]

theorem exit0_h (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (entry0_h m ρ c)))

theorem exit0_src (c : Dev nD) : W2 m ρ c (Proc.devRef .tc main_arg1) = m ((c : Thread nD τ).loc main_arg1) :=
  (W2_of_ne m ρ c main_arg1 (by decide)).trans (before_keeps_src (W0 m ρ c))

theorem exit0_dst (c : Dev nD) : W2 m ρ c (Proc.devRef .tc main_arg2) = m ((c : Thread nD τ).loc main_arg2) :=
  (W2_of_ne m ρ c main_arg2 (by decide)).trans (before_keeps_dst (W0 m ρ c))

/-- The fold at the result buffer is `result` of the launch contents of the five arguments. -/
theorem fold_result (c : Dev nD) : W5 m ρ c (Proc.devRef .tc main_v18)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (after_column (W4 m ρ c)).trans ?_
  unfold result
  refine congrArg (fun x => shapeCast S600000 x shapeCasts_S600000x1_S600000) ?_
  refine (W4_arr m ρ c 2).trans ((Scoring.final (V3 m ρ) c).trans ?_)
  refine congrArg₂ Scoring.scores ?_ ?_
  · refine (between_left (W2 m ρ c)).trans ?_
    rw [exit0_proj, exit0_src]
  · refine (between_right (W2 m ρ c)).trans ?_
    rw [exit0_h, exit0_dst]

end Cert.KernelIdeal.Whole

end
-- ==== Proof.LibSqueezeColumn.lean ====
/-
  A column read as a vector: an \`[a, 1]\` array cast to \`[a]\` reads, at \`i\`, the column at \`(i, 0)\`. (The row form,
  \`[1, a] → [a]\`, is in the library's layout file; this is its transpose, proved the same way.) General: nothing here
  mentions a program.
-/
import Idealize.ShloMosaic.Lib.Pipeline.Value
import Idealize.ShloMosaic.Lib.ValueIdx

namespace Cert.LibSqueezeColumn

open Idealize.ShloMosaic Idealize.ShloMosaic.ValueIdx

variable {α : Type}

/-- An \`[a, 1]\` array cast to \`[a]\` reads, at \`i\`, the operand at \`(i, 0)\`: the row-major positions agree,
    \`i · 1 + 0 = i\`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibSqueezeColumn
-- ==== Proof.Bridge.lean ====
/-
  The kernel program's result and the reference's result are one function of the five arguments, at the exact values.

  The reference computes `h · wᵀ + b` by one `dot_general` against the transposed weight and a bias broadcast over the
  rows; the kernel's projected features are the same entries, `Σ_k h (r, k) · w (q, k) + b q`, so the two projected
  arrays are equal. Both programs then gather rows of that array at the same wrapped source column and rows of `h` at
  the same wrapped destination column — the same operation on equal arrays — and the score of edge `e` is
  `Σ_d left (e, d) · right (e, d)` on both sides: the kernel's sum starts from the zero accumulator, the reference's from
  the constant `0`, which adds nothing.
-/
import proofs.«160177_j69965017252750_1_alg».proof.Proof.KernelValue
import proofs.«160177_j69965017252750_1_alg».proof.Proof.LibSqueezeColumn
import proofs.«160177_j69965017252750_1_alg».proof.Proof.Gen.ReferenceIdeal.Read
import Idealize.ShloMosaic.Lib.ValueLayout
import Idealize.ShloMosaic.Lib.ValueIdx
import Idealize.ShloMosaic.PureOps.Ideal.Laws

noncomputable section

open Idealize.ShloMosaic Idealize.ShloMosaic.ValueIdx

namespace Cert.Bridge

open Cert.ReferenceIdeal Cert.ReferenceIdeal.Read

/-- The kernel's projected features are the reference's `h · wᵀ + b`, entry by entry. -/
theorem projected_eq (x0 : (⟨S100000x128, .f32⟩ : BufTy).Contents (Elt Ideal)) (x3 : (⟨S128x128, .f32⟩ : BufTy).Contents (Elt Ideal))
    (x4 : (⟨S128, .f32⟩ : BufTy).Contents (Elt Ideal)) :
    Cert.KernelIdeal.Projection.projected x0
        (transpose Cert.KernelIdeal.S128x128 [1, 0] x3 Cert.KernelIdeal.Facts₀.transposes_S128x128_S128x128_1_0)
        (shapeCast Cert.KernelIdeal.S1x128 x4 Cert.KernelIdeal.Facts₀.shapeCasts_S128_S1x128)
      = val_main_v4 (F := Ideal) x0 x3 x4 := by
  funext i
  obtain ⟨r, q, rfl⟩ : ∃ (r : Fin 100000) (q : Fin 128), i = ix2 r q := ⟨i 0, i 1, eq_ix2 i⟩
  rw [val_main_v4_apply, val_main_v1_apply, val_main_v3_apply, val_main_v2_apply]
  show Cert.KernelIdeal.Projection.rowProj x0 _ _ r q = _
  unfold Cert.KernelIdeal.Projection.rowProj
  refine congrArg₂ (· + ·) (Finset.sum_congr rfl fun k _ => congrArg₂ (· * ·) ?_ ?_) ?_
  · exact congrArg x0 (funext fun a => Fin.ext (by match a with | ⟨0, _⟩ => rfl | ⟨1, _⟩ => rfl))
  · refine (transpose_ix2_apply x3 Cert.KernelIdeal.Facts₀.transposes_S128x128_S128x128_1_0 k q).trans ?_
    rw [val_main_v0_apply]
    exact congrArg x3 (funext fun a => Fin.ext (by match a with | ⟨0, _⟩ => rfl | ⟨1, _⟩ => rfl))
  · refine (shapeCast_a_1a_apply x4 Cert.KernelIdeal.Facts₀.shapeCasts_S128_S1x128 (0 : Fin 1) q).trans ?_
    exact congrArg x4 (funext fun a => Fin.ext (by match a with | ⟨0, _⟩ => rfl))

/-- The two programs gather with one operation: the same dimension numbers and the same wrapped index column. -/
theorem rows_eq (X : (⟨S100000x128, .f32⟩ : BufTy).Contents (Elt Ideal)) (s : (⟨S600000, .i32⟩ : BufTy).Contents (Elt Ideal)) :
    Cert.KernelIdeal.Whole.rowsAt X s
      = Host.gather gather_S100000x128_S600000x1_S600000x128_1_0_n_n_0_1_1128 X (val_main_v10 (F := Ideal) s) := rfl

/-- The kernel program's result is the reference's last stage. -/
theorem result_eq (x0 : (⟨S100000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal)) :
    Cert.KernelIdeal.Whole.result x0 x1 x2 x3 x4 = val_main_v20 (F := Ideal) x0 x1 x2 x3 x4 := by
  funext i
  obtain ⟨e, rfl⟩ : ∃ e : Fin 600000, i = ix1 e := ⟨i 0, eq_ix1 i⟩
  rw [val_main_v20_apply, val_main_cst_apply]
  unfold Cert.KernelIdeal.Whole.result
  refine (Cert.LibSqueezeColumn.shapeCast_a1_a_apply _ Cert.KernelIdeal.Facts₀.shapeCasts_S600000x1_S600000 e).trans ?_
  show Cert.KernelIdeal.Scoring.rowDot _ _ e = _
  unfold Cert.KernelIdeal.Scoring.rowDot
  rw [show (FloatOps.ofBits (F := Ideal) .f32 0x00000000#32) = (0 : EReal) from Ideal.ofBits_zero_f32, zero_add]
  refine Finset.sum_congr rfl fun d _ => ?_
  have hidx : idx_main_v20 (ix1 e) d = ix2 e d :=
    funext fun a => Fin.ext (by match a with | ⟨0, _⟩ => rfl | ⟨1, _⟩ => rfl)
  rw [hidx, val_main_v19_apply]
  refine congrArg₂ (· * ·) (congrFun ?_ _) (congrFun ?_ _)
  · rw [rows_eq, projected_eq]; rfl
  · rw [rows_eq]; rfl

end Cert.Bridge

end
-- ==== Proof.lean ====
/-
  The proof of `Cert.Claim`: a link-prediction scorer over a graph of 100000 nodes and 600000 edges,
    Wh = h · wᵀ + b,    score e = Σ_d Wh (src e, d) · h (dst e, d),
  computed by the kernel program in two pallas_calls around host gathers — the projection `h · wᵀ + b` over 50 blocks of
  2000 node rows, then the per-edge dot products over 50 blocks of 12000 edges — and by the reference as one
  `dot_general`, two gathers, a product and a row sum.

  The three frames: the kernel programs' are the generated frame certificates, the reference's is its generated run with
  the result dropped. `preserves` has no conjunct (the idealization rewrote nothing). `algebraic`: the kernel program's
  run ends with its result buffer at the fold of its five segments (Proof/KernelRun.lean), that fold read at the result
  is one function `result` of the five arguments (Proof/KernelValue.lean, over each region's whole-array value:
  Proof/Projection.lean, Proof/Scoring.lean, Proof/Payloads.lean), and `result` is the reference's last stage
  (Proof/Bridge.lean). No step needs the inputs finite: a sum into zero is the sum, and the two sides add the same
  terms in the same order.
-/
import proofs.«160177_j69965017252750_1_alg».proof.Defs
import proofs.«160177_j69965017252750_1_alg».proof.Proof.Gen.Kernel
import proofs.«160177_j69965017252750_1_alg».proof.Proof.Gen.Kernel.Skeleton
import proofs.«160177_j69965017252750_1_alg».proof.Proof.Gen.Kernel.Launch
import proofs.«160177_j69965017252750_1_alg».proof.Proof.Gen.Kernel.Points
import proofs.«160177_j69965017252750_1_alg».proof.Proof.Gen.Kernel.Frame
import proofs.«160177_j69965017252750_1_alg».proof.Proof.Gen.KernelIdeal
import proofs.«160177_j69965017252750_1_alg».proof.Proof.Gen.KernelIdeal.Skeleton
import proofs.«160177_j69965017252750_1_alg».proof.Proof.Gen.KernelIdeal.Launch
import proofs.«160177_j69965017252750_1_alg».proof.Proof.Gen.KernelIdeal.Points
import proofs.«160177_j69965017252750_1_alg».proof.Proof.Gen.KernelIdeal.Frame
import proofs.«160177_j69965017252750_1_alg».proof.Proof.Gen.ReferenceIdeal
import proofs.«160177_j69965017252750_1_alg».proof.Proof.Gen.Pre_finite_inputs
import proofs.«160177_j69965017252750_1_alg».proof.Proof.Gen.ReferenceIdeal.Run
import proofs.«160177_j69965017252750_1_alg».proof.Proof.Gen.ReferenceIdeal.Read
import proofs.«160177_j69965017252750_1_alg».proof.Proof.KernelRun
import proofs.«160177_j69965017252750_1_alg».proof.Proof.KernelValue
import proofs.«160177_j69965017252750_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the scores `result` of those arguments. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.fold_result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, (hagree c).1, (hagree c).2.1, (hagree c).2.2.1, (hagree c).2.2.2.1,
      (hagree c).2.2.2.2]
    exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
